-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x1024 : Shape := ⟨2, ![2048, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S16384x1024 .f32) (main_arg1 : FVec F S2048x1024 .f32) (main_arg2 : FVec F S2048x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Kernel.lean ====
abbrev S16384x1024 : Shape := ⟨2, ![16384, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S16384x2048 : Shape := ⟨2, ![16384, 2048]⟩
abbrev S1024x1024 : Shape := ⟨2, ![1024, 1024]⟩
abbrev S512x1024 : Shape := ⟨2, ![512, 1024]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 41
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S2048_S1x2048_1 : S2048.BroadcastsInDim S1x2048 (![1] : Fin 1 → Fin S1x2048.rank)
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x1024_S1024 : S1024x1024.Reduces [1] S1024
  shapeCasts_S1024_S1024x1 : S1024.ShapeCasts S1024x1
  bitsLt_bf16_f32 : FTy.bits .bf16 < FTy.bits .f32
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .f32 = 32 ∨ (Rect.block (s := S2048x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x1024.size a
  hwx0_2 : ∀ i : grid0.Coords, EltTy.bits .f32 = 32 ∨ (Rect.block (s := S2048x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x2048.size a
  hwx0_5 : ∀ i : grid0.Coords, EltTy.bits .f32 = 32 ∨ (Rect.block (s := S16384x2048) S1024x512.size (cc0_transform_5 i) (hinb0_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S16384 : Shape := ⟨1, ![16384]⟩
abbrev S1024x2048 : Shape := ⟨2, ![1024, 2048]⟩
abbrev S16384x2048 : Shape := ⟨2, ![16384, 2048]⟩
abbrev S16384x1 : Shape := ⟨2, ![16384, 1]⟩
abbrev S1x2048 : Shape := ⟨2, ![1, 2048]⟩

abbrev nBuf : Space → Nat
  | .hbm => 140
  | .vmem => 0
  | .smem => 0
  | _ => 0

abbrev hbmTy0_0 (i : Nat) : BufTy := match i % 128 with
  | 0 => ⟨S16384x1024, .f32⟩
  | 1 => ⟨S2048x1024, .f32⟩
  | 2 => ⟨S2048x1024, .f32⟩
  | 3 => ⟨S_, .f32⟩
  | 4 => ⟨S_, .f32⟩
  | 5 => ⟨S2048x1024, .f32⟩
  | 6 => ⟨S_, .f32⟩
  | 7 => ⟨S2048, .f32⟩
  | 8 => ⟨S2048x1, .f32⟩
  | 9 => ⟨S2048x1, .f32⟩
  | 10 => ⟨S_, .f32⟩
  | 11 => ⟨S2048x1, .f32⟩
  | 12 => ⟨S2048x1, .f32⟩
  | 13 => ⟨S2048x1, .f32⟩
  | 14 => ⟨S2048x1, .f32⟩
  | 15 => ⟨S2048x1, .f32⟩
  | 16 => ⟨S2048x1024, .f32⟩
  | 17 => ⟨S2048x1024, .f32⟩
  | 18 => ⟨S2048x1, .f32⟩
  | 19 => ⟨S2048x1, .f32⟩
  | 20 => ⟨S2048x1024, .f32⟩
  | 21 => ⟨S2048x1024, .f32⟩
  | 22 => ⟨S2048x1024, .f32⟩
  | 23 => ⟨S_, .f32⟩
  | 24 => ⟨S2048, .f32⟩
  | 25 => ⟨S2048x1, .f32⟩
  | 26 => ⟨S2048x1, .f32⟩
  | 27 => ⟨S_, .f32⟩
  | 28 => ⟨S2048x1, .f32⟩
  | 29 => ⟨S2048x1, .f32⟩
  | 30 => ⟨S2048x1024, .f32⟩
  | 31 => ⟨S2048x1024, .f32⟩
  | 32 => ⟨S16384x1024, .f32⟩
  | 33 => ⟨S_, .f32⟩
  | 34 => ⟨S16384, .f32⟩
  | 35 => ⟨S2048x1024, .f32⟩
  | 36 => ⟨S_, .f32⟩
  | 37 => ⟨S2048, .f32⟩
  | 38 => ⟨S1024x2048, .f32⟩
  | 39 => ⟨S16384x2048, .f32⟩
  | 40 => ⟨S1024x2048, .f32⟩
  | 41 => ⟨S16384x2048, .f32⟩
  | 42 => ⟨S2048x1024, .f32⟩
  | 43 => ⟨S_, .f32⟩
  | 44 => ⟨S2048, .f32⟩
  | 45 => ⟨S16384x2048, .f32⟩
  | 46 => ⟨S_, .f32⟩
  | 47 => ⟨S_, .f32⟩
  | 48 => ⟨S_, .f32⟩
  | 49 => ⟨S16384x2048, .f32⟩
  | 50 => ⟨S16384x2048, .f32⟩
  | 51 => ⟨S_, .f32⟩
  | 52 => ⟨S16384x2048, .f32⟩
  | 53 => ⟨S16384x2048, .f32⟩
  | 54 => ⟨S16384x1, .f32⟩
  | 55 => ⟨S_, .f32⟩
  | 56 => ⟨S16384x1, .f32⟩
  | 57 => ⟨S16384x1, .f32⟩
  | 58 => ⟨S16384x2048, .f32⟩
  | 59 => ⟨S16384x2048, .f32⟩
  | 60 => ⟨S1x2048, .f32⟩
  | 61 => ⟨S_, .f32⟩
  | 62 => ⟨S1x2048, .f32⟩
  | 63 => ⟨S1x2048, .f32⟩
  | 64 => ⟨S_, .f32⟩
  | 65 => ⟨S1x2048, .f32⟩
  | 66 => ⟨S1x2048, .f32⟩
  | 67 => ⟨S_, .f32⟩
  | 68 => ⟨S_, .f32⟩
  | 69 => ⟨S_, .f32⟩
  | 70 => ⟨S16384x2048, .f32⟩
  | 71 => ⟨S16384x2048, .f32⟩
  | 72 => ⟨S_, .f32⟩
  | 73 => ⟨S16384x2048, .f32⟩
  | 74 => ⟨S16384x2048, .f32⟩
  | 75 => ⟨S_, .f32⟩
  | 76 => ⟨S_, .f32⟩
  | 77 => ⟨S_, .f32⟩
  | 78 => ⟨S1x2048, .f32⟩
  | 79 => ⟨S1x2048, .f32⟩
  | 80 => ⟨S1x2048, .f32⟩
  | 81 => ⟨S16384x1, .f32⟩
  | 82 => ⟨S16384x2048, .f32⟩
  | 83 => ⟨S16384x2048, .f32⟩
  | 84 => ⟨S16384x2048, .f32⟩
  | 85 => ⟨S16384x2048, .f32⟩
  | 86 => ⟨S16384x2048, .f32⟩
  | 87 => ⟨S1x2048, .f32⟩
  | 88 => ⟨S16384x2048, .f32⟩
  | 89 => ⟨S16384x2048, .f32⟩
  | 90 => ⟨S_, .f32⟩
  | 91 => ⟨S16384x2048, .f32⟩
  | 92 => ⟨S16384x2048, .f32⟩
  | 93 => ⟨S16384x2048, .f32⟩
  | 94 => ⟨S16384x2048, .f32⟩
  | 95 => ⟨S16384x2048, .f32⟩
  | 96 => ⟨S16384x2048, .f32⟩
  | 97 => ⟨S1x2048, .f32⟩
  | 98 => ⟨S16384x1, .f32⟩
  | 99 => ⟨S16384x2048, .f32⟩
  | 100 => ⟨S16384x2048, .f32⟩
  | 101 => ⟨S16384x2048, .f32⟩
  | 102 => ⟨S16384x2048, .f32⟩
  | 103 => ⟨S16384x2048, .f32⟩
  | 104 => ⟨S16384x2048, .f32⟩
  | 105 => ⟨S2048, .f32⟩
  | 106 => ⟨S1x2048, .f32⟩
  | 107 => ⟨S16384x2048, .f32⟩
  | 108 => ⟨S16384x2048, .f32⟩
  | 109 => ⟨S16384x2048, .f32⟩
  | 110 => ⟨S16384x2048, .f32⟩
  | 111 => ⟨S16384x2048, .f32⟩
  | 112 => ⟨S16384x2048, .f32⟩
  | 113 => ⟨S_, .f32⟩
  | 114 => ⟨S_, .f32⟩
  | 115 => ⟨S16384x2048, .f32⟩
  | 116 => ⟨S16384x2048, .f32⟩
  | 117 => ⟨S_, .f32⟩
  | 118 => ⟨S16384x2048, .f32⟩
  | 119 => ⟨S16384x2048, .f32⟩
  | 120 => ⟨S_, .f32⟩
  | 121 => ⟨S16384x2048, .f32⟩
  | 122 => ⟨S16384x2048, .f32⟩
  | 123 => ⟨S16384x2048, .f32⟩
  | 124 => ⟨S_, .f32⟩
  | 125 => ⟨S16384x2048, .f32⟩
  | 126 => ⟨S16384x2048, .f32⟩
  | 127 => ⟨S_, .f32⟩
  | _ => ⟨S16384x1024, .f32⟩

abbrev hbmTy0_1 (i : Nat) : BufTy := match i % 128 with
  | 0 => ⟨S16384x2048, .f32⟩
  | 1 => ⟨S16384x2048, .f32⟩
  | 2 => ⟨S_, .f32⟩
  | 3 => ⟨S16384x2048, .f32⟩
  | 4 => ⟨S16384x2048, .f32⟩
  | 5 => ⟨S_, .f32⟩
  | 6 => ⟨S16384x2048, .f32⟩
  | 7 => ⟨S16384x2048, .f32⟩
  | 8 => ⟨S16384x2048, .f32⟩
  | 9 => ⟨S16384x2048, .f32⟩
  | 10 => ⟨S16384x2048, .f32⟩
  | 11 => ⟨S16384x2048, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_cst_11 : Ref sig .tc := ⟨.hbm, 67, rfl⟩
abbrev main_cst_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_cst_14 : Ref sig .tc := ⟨.hbm, 75, rfl⟩
abbrev main_cst_15 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_20 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_v95 : Ref sig .tc := ⟨.hbm, 129, rfl⟩
abbrev main_cst_22 : Ref sig .tc := ⟨.hbm, 130, rfl⟩
abbrev main_v96 : Ref sig .tc := ⟨.hbm, 131, rfl⟩
abbrev main_v97 : Ref sig .tc := ⟨.hbm, 132, rfl⟩
abbrev main_cst_23 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  reducesTo_S16384x1024_S16384_d1 : S16384x1024.ReducesTo [1] S16384
  transposes_S2048x1024_S1024x2048_1_0 : S2048x1024.Transposes [1, 0] S1024x2048
  bcast_S_S16384x2048 : S_.BroadcastsInDim S16384x2048 (![] : Fin 0 → Fin S16384x2048.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S16384x2048_0_1 : S1x2048.BroadcastsInDim S16384x2048 (![0, 1] : Fin 2 → Fin S16384x2048.rank)
  dot_S16384x1024_S1024x2048_S16384x2048_1_0_0_1_n_n_wf : DotDims.WF S16384x1024 S1024x2048 S16384x2048 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf

class Facts : Prop extends Facts₀ where

variable [Facts]
-- ==== Proof.BusemannSpec.lean ====
/-
  The Busemann distance of every input row to every class horosphere, as one function of three arrays.

  For an input row x, a class point p (inside the unit ball) and a unit direction a, write
  xx = ⟨x,x⟩, xp = ⟨x,p⟩, xa = ⟨x,a⟩, pp = ⟨p,p⟩, pa = ⟨p,a⟩. The Möbius translate z of x by −p has, in closed form,
    uv = −xp,  α = 1 + 2·uv + xx,  β = 1 − pp,  γ = 1 + 2·uv + pp·xx,
    ‖z‖² = (α²·pp + 2·α·β·uv + β²·xx) / γ²,   ⟨a,z⟩ = (α·(−pa) + β·xa) / γ,
  and the distance is log( max(1 − 2⟨a,z⟩ + ‖z‖², ε) / max(1 − ‖z‖², ε) ). `entry` is that formula on the extended
  reals, with every product by the curvature constant 1 kept where the program has one, so that it is the program's own
  term; `table` fills a [rows of x] × [rows of p] array with it, the five inner products being sums along a row.
-/
import Idealize.ShloMosaic.PureOps.Ideal
import Idealize.ShloMosaic.PureOps.Ideal.Laws
import Idealize.ShloMosaic.Lib.ValueIdx

noncomputable section

namespace Busemann

open Idealize.ShloMosaic Idealize.ShloMosaic.ValueIdx

/-- The distance from the five inner products: `xx = ⟨x,x⟩`, `xp = ⟨x,p⟩`, `xa = ⟨x,a⟩`, `pp = ⟨p,p⟩`, `pa = ⟨p,a⟩`.
    The words are 1, 2, 0 and ε = 10⁻¹⁵ rounded to single precision; a negation is written `0 − ·`. -/
def entry (xx xp xa pp pa : Ideal .f32) : Ideal .f32 :=
  let one : Ideal .f32 := FloatOps.ofBits .f32 0x3F800000#32
  let two : Ideal .f32 := FloatOps.ofBits .f32 0x40000000#32
  let zero : Ideal .f32 := FloatOps.ofBits .f32 0x00000000#32
  let eps : Ideal .f32 := FloatOps.ofBits .f32 0x26901D7D#32
  let uv := FloatOps.subf zero xp
  let alpha := FloatOps.addf (FloatOps.addf one (FloatOps.mulf two uv)) (FloatOps.mulf one xx)
  let beta := FloatOps.subf one (FloatOps.mulf one pp)
  let gamma := FloatOps.addf (FloatOps.addf one (FloatOps.mulf two uv)) (FloatOps.mulf (FloatOps.mulf one pp) xx)
  let zz := FloatOps.divf
    (FloatOps.addf (FloatOps.addf (FloatOps.mulf (FloatOps.mulf alpha alpha) pp)
        (FloatOps.mulf (FloatOps.mulf (FloatOps.mulf two alpha) beta) uv))
      (FloatOps.mulf (FloatOps.mulf beta beta) xx))
    (FloatOps.mulf gamma gamma)
  let za := FloatOps.divf (FloatOps.addf (FloatOps.mulf alpha (FloatOps.subf zero pa)) (FloatOps.mulf beta xa)) gamma
  let num := FloatOps.maximumf (FloatOps.addf (FloatOps.subf one (FloatOps.mulf two za)) (FloatOps.mulf one zz)) eps
  let den := FloatOps.maximumf (FloatOps.subf one (FloatOps.mulf one zz)) eps
  FloatOps.divf (FloatOps.log (FloatOps.divf num den)) one

/-- The inner product of row `a` of `u` with row `b` of `v`, both of length `k`. -/
def rowDot {m n k : ℕ} (u : (⟨2, ![m, k]⟩ : Shape).Idx → EReal) (v : (⟨2, ![n, k]⟩ : Shape).Idx → EReal)
    (a : Fin m) (b : Fin n) : EReal :=
  ∑ c : Fin k, u (ix2 a c) * v (ix2 b c)

/-- The whole result: entry `(r, q)` is the distance of row `r` of `x` to the horosphere of class `q`, whose point
    is row `q` of `p` and whose direction is row `q` of `a`. -/
def table {B K D : ℕ} (x : (⟨2, ![B, D]⟩ : Shape).Idx → EReal) (p a : (⟨2, ![K, D]⟩ : Shape).Idx → EReal) :
    (⟨2, ![B, K]⟩ : Shape).Idx → EReal :=
  fun i => entry (rowDot x x (i 0) (i 0)) (rowDot x p (i 0) (i 1)) (rowDot x a (i 0) (i 1))
    (rowDot p p (i 1) (i 1)) (rowDot p a (i 1) (i 1))

/-! ## The constants, where the two programs spell them differently -/

/-- The word of 1.0 is the real 1. -/
theorem one_word : Ideal.ofBits .f32 0x3F800000#32 = 1 := by
  simp [Ideal.ofBits, Ideal.ieee, -EReal.coe_mul]; norm_num

/-- The square root of 1 is 1. -/
theorem sqrt_one_word : Ideal.sqrt (Ideal.ofBits .f32 0x3F800000#32) = Ideal.ofBits .f32 0x3F800000#32 := by
  rw [one_word]
  show Ideal.sqrt ((1 : ℝ) : EReal) = ((1 : ℝ) : EReal)
  rw [Ideal.sqrt_coe, if_neg (by norm_num), Real.sqrt_one]

/-- A product with the word of 1.0 on the right changes nothing. -/
theorem mul_one_word (x : EReal) : x * Ideal.ofBits .f32 0x3F800000#32 = x := by
  rw [one_word, mul_one]

/-- Negation is subtraction from the zero word. -/
theorem neg_eq_zero_word_sub (x : EReal) : -x = Ideal.ofBits .f32 0x00000000#32 - x := by
  rw [Ideal.ofBits_zero_f32, zero_sub]

/-- A sum started from the zero word is the sum. -/
theorem zero_word_add (x : EReal) : Ideal.ofBits .f32 0x00000000#32 + x = x := by
  rw [Ideal.ofBits_zero_f32, zero_add]

end Busemann

end
-- ==== Proof.LibMatmulRowsByRows.lean ====
/-
  A matrix product "rows by rows", read at an entry.

  The product of an [m, k] matrix A with an [n, k] matrix B that contracts the SECOND axis of both (A · Bᵀ), accumulated
  into the zero matrix, has at entry (a, b) the sum over the k contracted positions c of A(a, c) · B(b, c). At the
  ideal values the product is the exact sum, so nothing of a chunking or an order of accumulation is left in it.
-/
import Idealize.ShloMosaic.PureOps.Ideal.Laws
import Idealize.ShloMosaic.Lib.ValueIdx

noncomputable section

namespace Idealize.ShloMosaic.ValueIdx

open Idealize.ShloMosaic

/-- A `tpu.matmul` of `[m, k]` by `[n, k]`, both contracting axis 1, into the zero accumulator: entry `(a, b)` is
    `∑ c, A (a, c) * B (b, c)`. `w` is the dimension record's well-formedness, which a program states. -/
theorem matmul_rows_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.ValueIdx

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.BlockEntry.lean ====
/-
  One block of the kernel's output, entry by entry.

  At a grid point the body holds a block X of 1024 input rows, blocks P and A of 512 class points and directions, and
  the two rows pp, pa of the classes' inner products ⟨p,p⟩ and ⟨p,a⟩. What it leaves at entry (r, q) of the
  1024 × 512 output block is the Busemann distance formula `Busemann.entry` of
    ⟨X_r, X_r⟩ (the sum along row r of X·X),  ⟨X_r, P_q⟩ and ⟨X_r, A_q⟩ (the two matrix products X·Pᵀ, X·Aᵀ, which
    at exact values are plain sums over the 1024 coordinates: rounding the factors to a shorter format changes nothing),
    pp(q) and pa(q).
-/
import proofs.«145019_j4827543240762_1_alg».proof.Proof.Gen.KernelIdeal.Value
import proofs.«145019_j4827543240762_1_alg».proof.Proof.BusemannSpec
import proofs.«145019_j4827543240762_1_alg».proof.Proof.LibMatmulRowsByRows
import proofs.«145019_j4827543240762_1_alg».proof.Proof.LibLaneSum
import Idealize.ShloMosaic.Lib.Pipeline.Value

noncomputable section

namespace Cert.KernelIdeal.Block

open Cert.KernelIdeal Cert.KernelIdeal.Gen Cert.KernelIdeal.Value Idealize.ShloMosaic Idealize.ShloMosaic.ValueIdx

variable (P0 : Vec Ideal S1024x1024 .f32) (P1 P4 : Vec Ideal S512x1024 .f32) (P2 P3 : Vec Ideal S1x512 .f32)

/-- The block entry is the distance formula of the body's whole-block reductions, each read where the entry's
    coordinates send it: the formula's tree and the body's are the same tree. -/
theorem E5_entry (y : S1024x512.Idx) :
    E5 (F := Ideal) P0 P1 P2 P3 P4 y = Busemann.entry
      ((multiReduction .add [1] S1024 (mulf P0 P0) 0x00000000#32 reduces_S1024x1024_S1024 (.inl rfl) rfl) (ix5_1 y))
      (matmul dot_S1024x1024_S512x1024_S1024x512_1_1_0_0_n_n none (truncf .bf16 P0 bitsLt_bf16_f32)
        (truncf .bf16 (shapeCast S512x1024 P1 shapeCasts_S512x1024_S512x1024) bitsLt_bf16_f32)
        (constant S1024x512 .f32 0x00000000#32) (ix5_0 y))
      (matmul dot_S1024x1024_S512x1024_S1024x512_1_1_0_0_n_n none (truncf .bf16 P0 bitsLt_bf16_f32)
        (truncf .bf16 (shapeCast S512x1024 P4 shapeCasts_S512x1024_S512x1024) bitsLt_bf16_f32)
        (constant S1024x512 .f32 0x00000000#32) (ix5_4 y))
      (P3 (ix5_3 y)) (P2 (ix5_2 y)) := rfl

/-- The product of the row block with a class block, contracting the 1024 coordinates of both, at entry (r, q):
    the inner product of row r with row q. -/
theorem product_entry (B : Vec Ideal S512x1024 .f32) (r : Fin 1024) (q : Fin 512) :
    matmul (F := Ideal) dot_S1024x1024_S512x1024_S1024x512_1_1_0_0_n_n none (truncf .bf16 P0 bitsLt_bf16_f32)
        (truncf .bf16 (shapeCast S512x1024 B shapeCasts_S512x1024_S512x1024) bitsLt_bf16_f32)
        (constant S1024x512 .f32 0x00000000#32) (ix2 r q)
      = Busemann.rowDot P0 B r q := by
  refine (matmul_rows_rows_apply Facts₀.dot_S1024x1024_S512x1024_S1024x512_1_1_0_0_n_n_wf none _ _ r q).trans ?_
  rw [shapeCast_self]
  rfl

/-- The sum along row r of the squares: the inner product of row r with itself. -/
theorem squares_entry (r : Fin 1024) :
    (multiReduction (F := Ideal) .add [1] S1024 (mulf P0 P0) 0x00000000#32 reduces_S1024x1024_S1024 (.inl rfl) rfl) (ix1 r)
      = Busemann.rowDot P0 P0 r r :=
  multiReduction_add_rows_apply (mulf P0 P0) _ reduces_S1024x1024_S1024 (.inl rfl) rfl r

/-- The distance formula at equal inner products. -/
theorem entry_congr {a a' b b' c c' : Ideal .f32} (d e : Ideal .f32) (ha : a = a') (hb : b = b') (hc : c = c') :
    Busemann.entry a b c d e = Busemann.entry a' b' c' d e := by
  subst ha hb hc; rfl

/-- ENTRY (r, q) OF THE BLOCK: the distance formula of the five inner products of the blocks' rows. -/
theorem block_entry (y : S1024x512.Idx) :
    E5 (F := Ideal) P0 P1 P2 P3 P4 y = Busemann.entry (Busemann.rowDot P0 P0 (y 0) (y 0))
      (Busemann.rowDot P0 P1 (y 0) (y 1)) (Busemann.rowDot P0 P4 (y 0) (y 1)) (P3 (ix2 0 (y 1))) (P2 (ix2 0 (y 1))) := by
  have e0 : ix5_0 y = ix2 (y 0) (y 1) := funext fun a => by match a with | ⟨0, _⟩ => rfl | ⟨1, _⟩ => rfl
  have e4 : ix5_4 y = ix2 (y 0) (y 1) := funext fun a => by match a with | ⟨0, _⟩ => rfl | ⟨1, _⟩ => rfl
  have e1 : ix5_1 y = ix1 (y 0) := funext fun a => by match a with | ⟨0, _⟩ => rfl
  have e3 : ix5_3 y = ix2 0 (y 1) := funext fun a => by match a with | ⟨0, _⟩ => rfl | ⟨1, _⟩ => rfl
  have e2 : ix5_2 y = ix2 0 (y 1) := funext fun a => by match a with | ⟨0, _⟩ => rfl | ⟨1, _⟩ => rfl
  rw [E5_entry, e0, e4, e1, e3, e2]
  exact entry_congr _ _ (squares_entry P0 (y 0)) (product_entry P0 P1 (y 0) (y 1)) (product_entry P0 P4 (y 0) (y 1))

end Cert.KernelIdeal.Block

end
-- ==== Proof.ReferenceEntry.lean ====
/-
  The reference's result, entry by entry.

  The reference computes the class points p and unit directions a from its second and third arguments, then five
  families of inner products — ⟨x,x⟩ and ⟨p,p⟩, ⟨p,a⟩ as sums along the rows of elementwise products, ⟨x,p⟩ and ⟨x,a⟩ as
  matrix products with the transposed class arrays — and combines them entry by entry. Read at entry (r, q) every
  broadcast picks row r of the inputs' quantities and row q of the classes', so the result is `Busemann.table` of the
  input array and of the two stages that hold p and a. The reference spells three constants differently from the
  formula — the curvature's square root as sqrt 1, and 2·1, 1·1 — and a negation as a negation: each equals the
  formula's constant or its `0 − ·` on every extended real.
-/
import proofs.«145019_j4827543240762_1_alg».proof.Proof.Gen.ReferenceIdeal.Read
import proofs.«145019_j4827543240762_1_alg».proof.Proof.BusemannSpec

noncomputable section

namespace Cert.ReferenceIdeal.Entry

open Cert.ReferenceIdeal Cert.ReferenceIdeal.Read Idealize.ShloMosaic Idealize.ShloMosaic.ValueIdx

variable (x0 : (⟨S16384x1024, .f32⟩ : BufTy).Contents (Elt Ideal)) (x1 x2 : (⟨S2048x1024, .f32⟩ : BufTy).Contents (Elt Ideal))

/-- ⟨x_r, x_r⟩: the sum along row r of the squared inputs, started from the zero word. -/
theorem input_norm (j : S16384.Idx) :
    val_main_v19 (F := Ideal) x0 j = Busemann.rowDot x0 x0 (j 0) (j 0) := by
  rw [val_main_v19_apply]
  refine (Busemann.zero_word_add _).trans (Finset.sum_congr rfl fun k _ => ?_)
  have e : idx_main_v19 j k = ix2 (j 0) k := funext fun a => by match a with | ⟨0, _⟩ => rfl | ⟨1, _⟩ => rfl
  rw [e]; rfl

/-- ⟨p_q, p_q⟩: the sum along row q of the squared class points. -/
theorem class_norm (j : S2048.Idx) :
    val_main_v21 (F := Ideal) x1 j = Busemann.rowDot (val_main_v12 (F := Ideal) x1) (val_main_v12 (F := Ideal) x1) (j 0) (j 0) := by
  rw [val_main_v21_apply]
  refine (Busemann.zero_word_add _).trans (Finset.sum_congr rfl fun k _ => ?_)
  have e : idx_main_v21 j k = ix2 (j 0) k := funext fun a => by match a with | ⟨0, _⟩ => rfl | ⟨1, _⟩ => rfl
  rw [e]; rfl

/-- ⟨p_q, a_q⟩: the sum along row q of the class points times the directions. -/
theorem class_dir (j : S2048.Idx) :
    val_main_v27 (F := Ideal) x1 x2 j = Busemann.rowDot (val_main_v12 (F := Ideal) x1) (val_main_v17 (F := Ideal) x2) (j 0) (j 0) := by
  rw [val_main_v27_apply]
  refine (Busemann.zero_word_add _).trans (Finset.sum_congr rfl fun k _ => ?_)
  have e : idx_main_v27 j k = ix2 (j 0) k := funext fun a => by match a with | ⟨0, _⟩ => rfl | ⟨1, _⟩ => rfl
  rw [e]; rfl

/-- ⟨x_r, p_q⟩: the product of the inputs with the transposed class points at (r, q). -/
theorem input_class (i : S16384x2048.Idx) :
    val_main_v23 (F := Ideal) x0 x1 i = Busemann.rowDot x0 (val_main_v12 (F := Ideal) x1) (i 0) (i 1) := by
  rw [val_main_v23_apply]
  refine Finset.sum_congr rfl fun k _ => ?_
  rw [val_main_v22_apply]
  have el : lidx_main_v23 i k = ix2 (i 0) k := funext fun a => by match a with | ⟨0, _⟩ => rfl | ⟨1, _⟩ => rfl
  have er : idx_main_v22 (ridx_main_v23 i k) = ix2 (i 1) k := funext fun a => by match a with | ⟨0, _⟩ => rfl | ⟨1, _⟩ => rfl
  rw [el, er]; rfl

/-- ⟨x_r, a_q⟩: the product of the inputs with the transposed directions at (r, q). -/
theorem input_dir (i : S16384x2048.Idx) :
    val_main_v25 (F := Ideal) x0 x2 i = Busemann.rowDot x0 (val_main_v17 (F := Ideal) x2) (i 0) (i 1) := by
  rw [val_main_v25_apply]
  refine Finset.sum_congr rfl fun k _ => ?_
  rw [val_main_v24_apply]
  have el : lidx_main_v25 i k = ix2 (i 0) k := funext fun a => by match a with | ⟨0, _⟩ => rfl | ⟨1, _⟩ => rfl
  have er : idx_main_v24 (ridx_main_v25 i k) = ix2 (i 1) k := funext fun a => by match a with | ⟨0, _⟩ => rfl | ⟨1, _⟩ => rfl
  rw [el, er]; rfl

/-- THE REFERENCE'S RESULT is the table of distances of the input rows to the horospheres of its class points and
    directions: every stage after the five inner products is read at the entry, then the reference's constants
    are the formula's. -/
theorem result_eq_table :
    val_main_v103 (F := Ideal) x0 x1 x2
      = Busemann.table (B := 16384) (K := 2048) (D := 1024) x0 (val_main_v12 (F := Ideal) x1) (val_main_v17 (F := Ideal) x2) := by
  funext i
  simp only [
    val_main_v28_apply, val_main_v29_apply, val_main_v30_apply, val_main_v31_apply, val_main_v32_apply,
    val_main_v33_apply, val_main_v34_apply, val_main_v35_apply, val_main_v36_apply, val_main_v37_apply,
    val_main_v38_apply, val_main_v39_apply, val_main_v40_apply, val_main_v41_apply, val_main_v42_apply,
    val_main_v43_apply, val_main_v44_apply, val_main_v45_apply, val_main_v46_apply, val_main_v47_apply,
    val_main_v48_apply, val_main_v49_apply, val_main_v50_apply, val_main_v51_apply, val_main_v52_apply,
    val_main_v53_apply, val_main_v54_apply, val_main_v55_apply, val_main_v56_apply, val_main_v57_apply,
    val_main_v58_apply, val_main_v59_apply, val_main_v60_apply, val_main_v61_apply, val_main_v62_apply,
    val_main_v63_apply, val_main_v64_apply, val_main_v65_apply, val_main_v66_apply, val_main_v67_apply,
    val_main_v68_apply, val_main_v69_apply, val_main_v70_apply, val_main_v71_apply, val_main_v72_apply,
    val_main_v73_apply, val_main_v74_apply, val_main_v75_apply, val_main_v76_apply, val_main_v77_apply,
    val_main_v78_apply, val_main_v79_apply, val_main_v80_apply, val_main_v81_apply, val_main_v82_apply,
    val_main_v83_apply, val_main_v84_apply, val_main_v85_apply, val_main_v86_apply, val_main_v87_apply,
    val_main_v88_apply, val_main_v89_apply, val_main_v90_apply, val_main_v91_apply, val_main_v92_apply,
    val_main_v93_apply, val_main_v94_apply, val_main_v95_apply, val_main_v96_apply, val_main_v97_apply,
    val_main_v98_apply, val_main_v99_apply, val_main_v100_apply, val_main_v101_apply, val_main_v102_apply,
    val_main_v103_apply, val_main_cst_5_apply, val_main_cst_6_apply, val_main_cst_7_apply, val_main_cst_8_apply,
    val_main_cst_9_apply, val_main_cst_10_apply, val_main_cst_11_apply, val_main_cst_12_apply, val_main_cst_13_apply,
    val_main_cst_14_apply, val_main_cst_15_apply, val_main_cst_16_apply, val_main_cst_17_apply,
    val_main_cst_18_apply, val_main_cst_19_apply, val_main_cst_20_apply, val_main_cst_21_apply,
    val_main_cst_22_apply, val_main_cst_23_apply, val_main_v0_apply, val_main_cst_apply,
    input_norm, class_norm, class_dir, input_class, input_dir]
  simp only [Ideal.hostUnary_sqrt_def, Ideal.ofBits_def, Busemann.sqrt_one_word, Ideal.mulf_def, Busemann.mul_one_word,
    Ideal.hostNegf_def, Ideal.negf_def, Busemann.neg_eq_zero_word_sub]
  rfl

end Cert.ReferenceIdeal.Entry

end
-- ==== Proof.HostPrelude.lean ====
/-
  What the kernel's region finds in its class arrays.

  Before the region the kernel program computes, on the host, the class points p (the exponential map at the origin of
  its second argument), the unit directions a (its third argument's rows normalised) and the two rows ⟨p,p⟩, ⟨p,a⟩ of
  per-class inner products. These are the reference's own operations, with the curvature's square root written as the
  literal 1 where the reference takes sqrt 1: so the arrays the four class windows stage are the reference's stages.
-/
import proofs.«145019_j4827543240762_1_alg».proof.Proof.Gen.KernelIdeal.Frame
import proofs.«145019_j4827543240762_1_alg».proof.Proof.Gen.ReferenceIdeal.Read
import proofs.«145019_j4827543240762_1_alg».proof.Proof.ReferenceEntry
import proofs.«145019_j4827543240762_1_alg».proof.Proof.BusemannSpec
import Idealize.ShloMosaic.Lib.StableHlo.Run
import Idealize.ShloMosaic.Lib.Pipeline.Value

noncomputable section

namespace Cert.KernelIdeal.Prelude

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v0 val_main_v3 val_main_v4 val_main_v5 val_main_v6 val_main_v7 val_main_v8 val_main_v9
  val_main_v10 val_main_v11 val_main_v12 val_main_v17 val_main_v20 val_main_v21 val_main_v26 val_main_v27 val_main_v39
  val_main_cst_3 val_main_cst_4)

variable (m : (ℓ : Loc nD τ sig) → Buf (Elt Ideal) ℓ)

/-- The reference's curvature root sqrt 1, as a scalar array, is the constant 1. -/
theorem curvature_root : val_main_v0 (F := Ideal) = constant (F := Ideal) Cert.ReferenceIdeal.S_ .f32 0x3F800000#32 :=
  funext fun _ => Busemann.sqrt_one_word

/-- The class points the region finds are the reference's. -/
theorem class_points (c : Dev nD) :
    (V m c main_v11 : S2048x1024.Idx → EReal) = val_main_v12 (F := Ideal) (m ((c : Thread nD τ).loc main_arg1)) := by
  dsimp only [V]
  simp only [hostOps0, hostOps0_1, hostOps0_2, hostOps0_3, List.flatten_cons, List.flatten_nil, List.append_nil,
    List.cons_append, List.nil_append]
  after_results_simp
  simp only [val_main_v12, val_main_v8, val_main_v7, val_main_v6, val_main_v5, val_main_v4, val_main_v11, val_main_v10,
    val_main_v9, curvature_root]
  rfl

/-- The unit directions the region finds are the reference's. -/
theorem class_dirs (c : Dev nD) :
    (V m c main_v16 : S2048x1024.Idx → EReal) = val_main_v17 (F := Ideal) (m ((c : Thread nD τ).loc main_arg2)) := by
  dsimp only [V]
  simp only [hostOps0, hostOps0_1, hostOps0_2, hostOps0_3, List.flatten_cons, List.flatten_nil, List.append_nil,
    List.cons_append, List.nil_append]
  after_results_simp
  rfl

/-- The row of ⟨p,p⟩ the region finds is the reference's. -/
theorem class_norms (c : Dev nD) :
    (V m c main_v19 : S1x2048.Idx → EReal) = val_main_v39 (F := Ideal) (m ((c : Thread nD τ).loc main_arg1)) := by
  dsimp only [V]
  simp only [hostOps0, hostOps0_1, hostOps0_2, hostOps0_3, List.flatten_cons, List.flatten_nil, List.append_nil,
    List.cons_append, List.nil_append]
  after_results_simp
  simp only [val_main_v39, val_main_v21, val_main_v20, val_main_v12, val_main_v8, val_main_v7, val_main_v6, val_main_v5,
    val_main_v4, val_main_v11, val_main_v10, val_main_v9, curvature_root]
  rfl

/-- The row of ⟨p,a⟩ the region finds is the reference's sum along the rows of p·a, laid as a row. -/
theorem class_dirnorms (c : Dev nD) :
    (V m c main_v22 : S1x2048.Idx → EReal) = broadcastInDim S1x2048 ![1] bcast_S2048_S1x2048_1
      (val_main_v27 (F := Ideal) (m ((c : Thread nD τ).loc main_arg1)) (m ((c : Thread nD τ).loc main_arg2))) := by
  dsimp only [V]
  simp only [hostOps0, hostOps0_1, hostOps0_2, hostOps0_3, List.flatten_cons, List.flatten_nil, List.append_nil,
    List.cons_append, List.nil_append]
  after_results_simp
  simp only [val_main_v27, val_main_v26, val_main_v12, val_main_v8, val_main_v7, val_main_v6, val_main_v5,
    val_main_v4, val_main_v11, val_main_v10, val_main_v9, curvature_root]
  rfl

/-- Entry q of the ⟨p,p⟩ row: the inner product of class point q with itself. -/
theorem class_norms_at (c : Dev nD) (j : S1x2048.Idx) :
    (V m c main_v19 : S1x2048.Idx → EReal) j
      = Busemann.rowDot (val_main_v12 (F := Ideal) (m ((c : Thread nD τ).loc main_arg1)))
          (val_main_v12 (F := Ideal) (m ((c : Thread nD τ).loc main_arg1))) (j 1) (j 1) := by
  rw [class_norms, Cert.ReferenceIdeal.Read.val_main_v39_apply, Cert.ReferenceIdeal.Entry.class_norm]
  rfl

/-- Entry q of the ⟨p,a⟩ row: the inner product of class point q with direction q. -/
theorem class_dirnorms_at (c : Dev nD) (j : S1x2048.Idx) :
    (V m c main_v22 : S1x2048.Idx → EReal) j
      = Busemann.rowDot (val_main_v12 (F := Ideal) (m ((c : Thread nD τ).loc main_arg1)))
          (val_main_v17 (F := Ideal) (m ((c : Thread nD τ).loc main_arg2))) (j 1) (j 1) := by
  rw [class_dirnorms]
  refine (broadcastInDim_apply _ bcast_S2048_S1x2048_1 _ j (ix1 (j 1)) (fun a => match a with
    | ⟨0, _⟩ => by show (j 1).val = if (2048 : Nat) = 1 then 0 else (j 1).val; rw [if_neg (by decide)])).trans ?_
  rw [Cert.ReferenceIdeal.Entry.class_dir]

end Cert.KernelIdeal.Prelude

end
-- ==== Proof.KernelTable.lean ====
/-
  The kernel's whole result array.

  The grid has 4 × 16 points; point (cj, bi) works on the 1024 input rows of row block bi and the 512 classes of class
  block cj, and writes back the 1024 × 512 block (bi, cj) of the result. Every window's block is read where the
  output's block says: the input window at row block bi (all 1024 coordinates), the class windows at class block cj.
  So the block a point writes is the block of `Busemann.table` (of the input array and of the class points and
  directions the region finds); the 64 blocks tile the 16384 × 2048 array, hence the array ends equal to the table.
-/
import proofs.«145019_j4827543240762_1_alg».proof.Proof.Gen.KernelIdeal.Value
import proofs.«145019_j4827543240762_1_alg».proof.Proof.BlockEntry
import proofs.«145019_j4827543240762_1_alg».proof.Proof.HostPrelude
import proofs.«145019_j4827543240762_1_alg».proof.Proof.BusemannSpec
import Idealize.ShloMosaic.Lib.Pipeline.Value

noncomputable section

namespace Cert.KernelIdeal.Table

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.ReferenceIdeal.Read (val_main_v12 val_main_v17)

variable (m : (ℓ : Loc nD τ sig) → Buf (Elt Ideal) ℓ) (ρ : Dev nD → PrngReg)

theorem hz : (![0, 0] : Fin 2 → Nat) = fun _ => 0 := funext fun a => by fin_cases a <;> rfl

/-- The table of distances of the input rows to the horospheres of the class points and directions computed from the
    second and third arguments. -/
abbrev result (c : Dev nD) : S16384x2048.Idx → EReal :=
  Busemann.table (B := 16384) (K := 2048) (D := 1024) (m ((c : Thread nD τ).loc main_arg0))
    (val_main_v12 (F := Ideal) (m ((c : Thread nD τ).loc main_arg1))) (val_main_v17 (F := Ideal) (m ((c : Thread nD τ).loc main_arg2)))

/-- The distance formula at equal inner products. -/
theorem entry_congr {a a' b b' c c' d d' e e' : Ideal .f32} (ha : a = a') (hb : b = b') (hc : c = c') (hd : d = d')
    (he : e = e') : Busemann.entry a b c d e = Busemann.entry a' b' c' d' e' := by
  subst ha hb hc hd he; rfl

/-- The index maps over the 64 points: the input window follows the output's row block and takes every coordinate;
    each class window follows the output's class block. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2) :=
  (by decide +kernel : ∀ t : Fin grid0.N, _)

/-- Every block of the result is some point's. -/
theorem idx_onto : ∀ (q0 : Fin 16) (q1 : Fin 4), ∃ t : Fin cfg0.N, win0_5.index t = ![q0.val, q1.val] :=
  (by decide +kernel : ∀ (q0 : Fin 16) (q1 : Fin 4), ∃ t : Fin grid0.N, win0_5.index t = ![q0.val, q1.val])

/-- Row r of a point's input block is row (row block · 1024 + r) of the first argument: all 1024 coordinates. -/
theorem input_rows (c : Dev nD) (t : Fin cfg0.N) (j : S1024x512.Idx) (k : Fin 1024) :
    iblk m c 0 t (ix2 (j 0) k)
      = (m ((c : Thread nD τ).loc main_arg0) : S16384x1024.Idx → EReal) (ix2 ((((cfg0.win 5).blk t).view.emb j) 0) k) := by
  obtain ⟨e00, e01, -⟩ := idx_facts t
  show V m c main_arg0 (((cfg0.win 0).blk t).view.emb (ix2 (j 0) k)) = _
  rw [V_main_arg0]
  refine congrArg _ (funext fun a => Fin.ext ?_)
  match a with
  | ⟨0, _⟩ => show win0_0.index t (0 : Fin 2) * 1024 + 1 * (j 0).val = win0_5.index t (0 : Fin 2) * 1024 + 1 * (j 0).val; rw [e00]
  | ⟨1, _⟩ => show win0_0.index t (1 : Fin 2) * 1024 + 1 * k.val = k.val; rw [e01]; omega

/-- Row q of a point's block of class points is row (class block · 512 + q) of the class points. -/
theorem point_rows (c : Dev nD) (t : Fin cfg0.N) (j : S1024x512.Idx) (k : Fin 1024) :
    iblk m c 1 t (ix2 (j 1) k)
      = val_main_v12 (F := Ideal) (m ((c : Thread nD τ).loc main_arg1)) (ix2 ((((cfg0.win 5).blk t).view.emb j) 1) k) := by
  obtain ⟨-, -, e10, e11, -⟩ := idx_facts t
  show (V m c main_v11 : S2048x1024.Idx → EReal) (((cfg0.win 1).blk t).view.emb (ix2 (j 1) k)) = _
  rw [Prelude.class_points]
  refine congrArg _ (funext fun a => Fin.ext ?_)
  match a with
  | ⟨0, _⟩ => show win0_1.index t (0 : Fin 2) * 512 + 1 * (j 1).val = win0_5.index t (1 : Fin 2) * 512 + 1 * (j 1).val; rw [e10]
  | ⟨1, _⟩ => show win0_1.index t (1 : Fin 2) * 1024 + 1 * k.val = k.val; rw [e11]; omega

/-- Row q of a point's block of directions is row (class block · 512 + q) of the directions. -/
theorem dir_rows (c : Dev nD) (t : Fin cfg0.N) (j : S1024x512.Idx) (k : Fin 1024) :
    iblk m c 2 t (ix2 (j 1) k)
      = val_main_v17 (F := Ideal) (m ((c : Thread nD τ).loc main_arg2)) (ix2 ((((cfg0.win 5).blk t).view.emb j) 1) k) := by
  obtain ⟨-, -, -, -, e20, e21, -⟩ := idx_facts t
  show (V m c main_v16 : S2048x1024.Idx → EReal) (((cfg0.win 2).blk t).view.emb (ix2 (j 1) k)) = _
  rw [Prelude.class_dirs]
  refine congrArg _ (funext fun a => Fin.ext ?_)
  match a with
  | ⟨0, _⟩ => show win0_2.index t (0 : Fin 2) * 512 + 1 * (j 1).val = win0_5.index t (1 : Fin 2) * 512 + 1 * (j 1).val; rw [e20]
  | ⟨1, _⟩ => show win0_2.index t (1 : Fin 2) * 1024 + 1 * k.val = k.val; rw [e21]; omega

/-- Entry q of a point's block of the ⟨p,p⟩ row is ⟨p,p⟩ of class (class block · 512 + q). -/
theorem norm_entry (c : Dev nD) (t : Fin cfg0.N) (j : S1024x512.Idx) :
    iblk m c 3 t (ix2 0 (j 1))
      = Busemann.rowDot (val_main_v12 (F := Ideal) (m ((c : Thread nD τ).loc main_arg1)))
          (val_main_v12 (F := Ideal) (m ((c : Thread nD τ).loc main_arg1)))
          ((((cfg0.win 5).blk t).view.emb j) 1) ((((cfg0.win 5).blk t).view.emb j) 1) := by
  obtain ⟨-, -, -, -, -, -, -, e31, -⟩ := idx_facts t
  have hq : ((((cfg0.win 3).blk t).view.emb (ix2 0 (j 1))) 1) = ((((cfg0.win 5).blk t).view.emb j) 1) := Fin.ext (by
    show win0_3.index t (1 : Fin 2) * 512 + 1 * (j 1).val = win0_5.index t (1 : Fin 2) * 512 + 1 * (j 1).val; rw [e31])
  show (V m c main_v19 : S1x2048.Idx → EReal) (((cfg0.win 3).blk t).view.emb (ix2 0 (j 1))) = _
  rw [Prelude.class_norms_at, hq]

/-- Entry q of a point's block of the ⟨p,a⟩ row is ⟨p,a⟩ of class (class block · 512 + q). -/
theorem dirnorm_entry (c : Dev nD) (t : Fin cfg0.N) (j : S1024x512.Idx) :
    iblk m c 4 t (ix2 0 (j 1))
      = Busemann.rowDot (val_main_v12 (F := Ideal) (m ((c : Thread nD τ).loc main_arg1)))
          (val_main_v17 (F := Ideal) (m ((c : Thread nD τ).loc main_arg2)))
          ((((cfg0.win 5).blk t).view.emb j) 1) ((((cfg0.win 5).blk t).view.emb j) 1) := by
  obtain ⟨-, -, -, -, -, -, -, -, -, e41⟩ := idx_facts t
  have hq : ((((cfg0.win 4).blk t).view.emb (ix2 0 (j 1))) 1) = ((((cfg0.win 5).blk t).view.emb j) 1) := Fin.ext (by
    show win0_4.index t (1 : Fin 2) * 512 + 1 * (j 1).val = win0_5.index t (1 : Fin 2) * 512 + 1 * (j 1).val; rw [e41])
  show (V m c main_v22 : S1x2048.Idx → EReal) (((cfg0.win 4).blk t).view.emb (ix2 0 (j 1))) = _
  rw [Prelude.class_dirnorms_at, hq]

/-- The entry a point computes from its blocks is the table's entry at the block's place in the result. -/
theorem block_is_table (c : Dev nD) (t : Fin cfg0.N) (j : S1024x512.Idx) :
    Busemann.entry (Busemann.rowDot (iblk m c 0 t) (iblk m c 0 t) (j 0) (j 0))
        (Busemann.rowDot (iblk m c 0 t) (iblk m c 1 t) (j 0) (j 1)) (Busemann.rowDot (iblk m c 0 t) (iblk m c 2 t) (j 0) (j 1))
        (iblk m c 3 t (ix2 0 (j 1))) (iblk m c 4 t (ix2 0 (j 1)))
      = result m c (((cfg0.win 5).blk t).view.emb j) := by
  have hxx : Busemann.rowDot (iblk m c 0 t) (iblk m c 0 t) (j 0) (j 0)
      = Busemann.rowDot (m ((c : Thread nD τ).loc main_arg0) : S16384x1024.Idx → EReal)
          (m ((c : Thread nD τ).loc main_arg0) : S16384x1024.Idx → EReal)
          ((((cfg0.win 5).blk t).view.emb j) 0) ((((cfg0.win 5).blk t).view.emb j) 0) :=
    Finset.sum_congr rfl fun k _ => by rw [input_rows m c t j k]
  have hxp : Busemann.rowDot (iblk m c 0 t) (iblk m c 1 t) (j 0) (j 1)
      = Busemann.rowDot (m ((c : Thread nD τ).loc main_arg0) : S16384x1024.Idx → EReal)
          (val_main_v12 (F := Ideal) (m ((c : Thread nD τ).loc main_arg1)))
          ((((cfg0.win 5).blk t).view.emb j) 0) ((((cfg0.win 5).blk t).view.emb j) 1) :=
    Finset.sum_congr rfl fun k _ => by rw [input_rows m c t j k, point_rows m c t j k]
  have hxa : Busemann.rowDot (iblk m c 0 t) (iblk m c 2 t) (j 0) (j 1)
      = Busemann.rowDot (m ((c : Thread nD τ).loc main_arg0) : S16384x1024.Idx → EReal)
          (val_main_v17 (F := Ideal) (m ((c : Thread nD τ).loc main_arg2)))
          ((((cfg0.win 5).blk t).view.emb j) 0) ((((cfg0.win 5).blk t).view.emb j) 1) :=
    Finset.sum_congr rfl fun k _ => by rw [input_rows m c t j k, dir_rows m c t j k]
  show _ = Busemann.table (B := 16384) (K := 2048) (D := 1024) (m ((c : Thread nD τ).loc main_arg0))
    (val_main_v12 (F := Ideal) (m ((c : Thread nD τ).loc main_arg1)))
    (val_main_v17 (F := Ideal) (m ((c : Thread nD τ).loc main_arg2))) (((cfg0.win 5).blk t).view.emb j)
  unfold Busemann.table
  exact entry_congr hxx hxp hxa (norm_entry m c t j) (dirnorm_entry m c t j)

/-- WHAT POINT `t` WRITES BACK is block `t` of the table. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  simp only [View.ld_unit_zero (S := S1024x1024) hz, View.ld_unit_zero (S := S512x1024) hz, View.ld_unit_zero (S := S1x512) hz]
  funext j
  refine (canon5_eq (F := Ideal) (iblk m c 0 t) (iblk m c 1 t) (iblk m c 4 t) (iblk m c 3 t) (iblk m c 2 t) j).trans ?_
  refine (Block.block_entry (P0 := iblk m c 0 t) (P1 := iblk m c 1 t) (P4 := iblk m c 2 t) (P2 := iblk m c 4 t)
    (P3 := iblk m c 3 t) j).trans ?_
  exact block_is_table m c t j

/-- An index of the result is in point `t`'s block iff each coordinate is in the block's range on its axis. -/
theorem mem_blk (t : Fin cfg0.N) (i : S16384x2048.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v23).slice (win0_5.rect t)).set ↔ _
  rw [View.set_slice_whole, Rect.mem_set_unit]
  exact Iff.rfl

/-- The 64 blocks cover the result: entry (r, q) is in the block of row block r / 1024 and class block q / 512. -/
theorem cover (i : S16384x2048.Idx) :
    ∃ t : Fin cfg0.N, (cfg0.win 5).flush t = true ∧ i ∈ ((cfg0.win 5).blk t).view.set := by
  have hi0 : (i 0).val < 16384 := (i 0).isLt
  have hi1 : (i 1).val < 2048 := (i 1).isLt
  obtain ⟨t, ht⟩ := idx_onto ⟨(i 0).val / 1024, by omega⟩ ⟨(i 1).val / 512, by omega⟩
  have q0 : win0_5.index t (0 : Fin 2) = (i 0).val / 1024 := congrFun ht 0
  have q1 : win0_5.index t (1 : Fin 2) = (i 1).val / 512 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- THE RESULT ARRAY after the run is the table. -/
theorem final (c : Dev nD) : (dats m 0 c).arrAt 5 cfg0.N = result m c :=
  (dats m 0 c).arrAt_eq_of_cover 5 (result m c) (fun t _ => flushed_eq m c t) cover

/-- The kernel program's run: the result at the table, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Table

end
-- ==== Proof.lean ====
/- The proof of `Cert.Claim`: the tiled Busemann-distance kernel against its plain reference, over the extended reals.

   Both programs compute, for 16384 input rows x and 2048 classes given by a point p in the unit ball and a unit
   direction a, the distance log( max(1 − 2⟨a,z⟩ + ‖z‖², ε) / max(1 − ‖z‖², ε) ) of x to the horosphere through p
   with direction a, where z is the Möbius translate of x by −p, written in closed form over the inner products ⟨x,x⟩,
   ⟨x,p⟩, ⟨x,a⟩, ⟨p,p⟩, ⟨p,a⟩ (Proof/BusemannSpec.lean: `Busemann.entry`, `Busemann.table`).
   The kernel program computes p, a and the two per-class rows ⟨p,p⟩, ⟨p,a⟩ on the host exactly as the reference does
   (Proof/HostPrelude.lean) and then, on a 4 × 16 grid, fills the 1024 × 512 blocks of the result: a block's entry is the
   formula of a row sum of squares, two matrix products and the two rows (Proof/BlockEntry.lean), the blocks tile the
   result (Proof/KernelTable.lean). The reference's result, read entry by entry, is the same table
   (Proof/ReferenceEntry.lean). The two spell a few things differently — the kernel multiplies in a shorter format and
   accumulates exactly, which at exact values is the plain sum; the reference keeps sqrt 1, 2·1 and 1·1 where the kernel
   has 1, 2 and 1, and negates where the kernel subtracts from 0 — and each pair is equal on every extended real, so the
   precondition is never opened. The three frames are the generated frame runs; the ideal pass rewrote nothing. -/
import proofs.«145019_j4827543240762_1_alg».proof.Defs
import proofs.«145019_j4827543240762_1_alg».proof.Proof.Gen.Kernel
import proofs.«145019_j4827543240762_1_alg».proof.Proof.Gen.Kernel.Skeleton
import proofs.«145019_j4827543240762_1_alg».proof.Proof.Gen.Kernel.Launch
import proofs.«145019_j4827543240762_1_alg».proof.Proof.Gen.Kernel.Points
import proofs.«145019_j4827543240762_1_alg».proof.Proof.Gen.Kernel.Frame
import proofs.«145019_j4827543240762_1_alg».proof.Proof.Gen.KernelIdeal
import proofs.«145019_j4827543240762_1_alg».proof.Proof.Gen.KernelIdeal.Skeleton
import proofs.«145019_j4827543240762_1_alg».proof.Proof.Gen.KernelIdeal.Launch
import proofs.«145019_j4827543240762_1_alg».proof.Proof.Gen.KernelIdeal.Points
import proofs.«145019_j4827543240762_1_alg».proof.Proof.Gen.KernelIdeal.Frame
import proofs.«145019_j4827543240762_1_alg».proof.Proof.Gen.ReferenceIdeal
import proofs.«145019_j4827543240762_1_alg».proof.Proof.Gen.KernelIdeal.Value
import proofs.«145019_j4827543240762_1_alg».proof.Proof.Gen.ReferenceIdeal.Run
import proofs.«145019_j4827543240762_1_alg».proof.Proof.Gen.ReferenceIdeal.Read
import proofs.«145019_j4827543240762_1_alg».proof.Proof.Gen.Pre_finite_inputs
import proofs.«145019_j4827543240762_1_alg».proof.Proof.KernelTable
import proofs.«145019_j4827543240762_1_alg».proof.Proof.ReferenceEntry
import Idealize.ShloMosaic.Adequacy
import Idealize.ShloMosaic.Init

noncomputable section

namespace Cert.Proof

open Idealize.ShloMosaic Idealize.SL.Sem Idealize.ShloMosaic.TcCoe

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the table of distances of the same arguments. -/
theorem algebraic : Cert.algebraic_KernelIdeal_ReferenceIdeal := by
  intro m ρ m' ρ' _ hagree
  refine ⟨fun c => Cert.KernelIdeal.Table.result m c, Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, Cert.ReferenceIdeal.Entry.result_eq_table, (hagree c).1,
    (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
